-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x5000 : Shape := ⟨2, ![8192, 5000]⟩
abbrev S_ : Shape := ⟨0, ![]⟩

class Facts : Prop where
  bcast_S_S8192x5000 : S_.BroadcastsInDim S8192x5000 (![] : Fin 0 → Fin S8192x5000.rank)
  reducesTo_S8192x5000_S_d0_1 : S8192x5000.ReducesTo [0, 1] S_
  h_S_ : 0 < S_.numel

variable [Facts]

def fn {F : FTy → Type} [FloatOps F] (main_arg0 : FVec F S8192x5000 .f32) (main_arg1 : IVec S8192x5000 32) : IVec S_ 1 :=
  let main_v0 : FVec F S8192x5000 .f32 := Host.absf main_arg0
  let main_cst : FVec F S_ .f32 := constant S_ .f32 0x7F800000#32
  let main_v1 : FVec F S8192x5000 .f32 := broadcastInDim S8192x5000 ![] bcast_S_S8192x5000 main_cst
  let main_v2 : IVec S8192x5000 1 := cmpf .olt main_v0 main_v1
  let main_c : IVec S_ 1 := constantI S_ 1 1#1
  let main_v3 : IVec S_ 1 := (fun x v => Host.reduce IntOp.andi x v reducesTo_S8192x5000_S_d0_1 h_S_) main_v2 main_c
  main_v3
-- ==== Kernel.lean ====
abbrev S8192x5000 : Shape := ⟨2, ![8192, 5000]⟩
abbrev S1x1 : Shape := ⟨2, ![1, 1]⟩
abbrev S_ : Shape := ⟨0, ![]⟩
abbrev S128x5000 : Shape := ⟨2, ![128, 5000]⟩
abbrev S128 : Shape := ⟨1, ![128]⟩
abbrev S128x1 : Shape := ⟨2, ![128, 1]⟩
abbrev S1 : Shape := ⟨1, ![1]⟩

abbrev nBuf : Space → Nat
  | .hbm => 7
  | .vmem => 8
  | .smem => 0
  | _ => 0

abbrev bufTy : (tb : Table) → Fin (tcTables nBuf tb) → BufTy
  | .hbm, ⟨0, _⟩ => ⟨S8192x5000, .f32⟩
  | .hbm, ⟨1, _⟩ => ⟨S8192x5000, .i32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S128x5000, .f32⟩
  | .local _ .vmem, ⟨1, _⟩ => ⟨S128x5000, .f32⟩
  | .local _ .vmem, ⟨2, _⟩ => ⟨S128x5000, .i32⟩
  | .local _ .vmem, ⟨3, _⟩ => ⟨S128x5000, .i32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S8192x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v41 : BitVec 1 := Scalar.cmpi .eq arg0 c63_i32
  let v42 : BitVec 32 := Scalar.extui v41
  let c0_i32_20 : BitVec 32 := 0#32
  let v43 : BitVec 1 := Scalar.cmpi .ne v42 c0_i32_20
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x5000_S128x5000_0_0 : ∀ a, (![0, 0] : Fin 2 → Nat) a + S128x5000.size a ≤ S128x5000.size a
  h_S128x5000 : 0 < S128x5000.numel
  natLt_1_32 : 1 < 32
  reduces_S128x5000_S128 : S128x5000.Reduces [1] S128
  shapeCasts_S128_S128x1 : S128.ShapeCasts S128x1
  reduces_S128x1_S1 : S128x1.Reduces [0] S1
  shapeCasts_S1_S1x1 : S1.ShapeCasts S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x5000.size a ≤ S8192x5000.size a
  hwx0_0 : ∀ i : grid0.Coords, EltTy.bits .f32 = 32 ∨ (Rect.block (s := S8192x5000) S128x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x5000.size a ≤ S8192x5000.size a
  hwx0_1 : ∀ i : grid0.Coords, EltTy.bits .i32 = 32 ∨ (Rect.block (s := S8192x5000) S128x5000.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S128x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x5000 : Shape := ⟨2, ![8192, 5000]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x5000, .f32⟩
  | .hbm, ⟨1, _⟩ => ⟨S8192x5000, .i32⟩
  | .hbm, ⟨2, _⟩ => ⟨S_, .i32⟩
  | .hbm, ⟨3, _⟩ => ⟨S8192x5000, .i32⟩
  | .hbm, ⟨4, _⟩ => ⟨S8192x5000, .i1⟩
  | .hbm, ⟨5, _⟩ => ⟨S_, .i32⟩
  | .hbm, ⟨6, _⟩ => ⟨S8192x5000, .i32⟩
  | .hbm, ⟨7, _⟩ => ⟨S8192x5000, .i1⟩
  | .hbm, ⟨8, _⟩ => ⟨S8192x5000, .f32⟩
  | .hbm, ⟨9, _⟩ => ⟨S8192x5000, .f32⟩
  | .hbm, ⟨10, _⟩ => ⟨S8192x5000, .f32⟩
  | .hbm, ⟨11, _⟩ => ⟨S8192x5000, .f32⟩
  | .hbm, ⟨12, _⟩ => ⟨S8192x5000, .f32⟩
  | .hbm, ⟨13, _⟩ => ⟨S_, .f32⟩
  | .hbm, ⟨14, _⟩ => ⟨S_, .f32⟩
  | .hbm, ⟨15, _⟩ => ⟨S8192x5000, .f32⟩
  | .hbm, ⟨16, _⟩ => ⟨S8192x5000, .f32⟩
  | .hbm, ⟨17, _⟩ => ⟨S8192x5000, .f32⟩
  | .hbm, ⟨18, _⟩ => ⟨S8192x5000, .i1⟩
  | .hbm, ⟨19, _⟩ => ⟨S8192x5000, .i32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S8192x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S8192x5000 : S_.BroadcastsInDim S8192x5000 (![] : Fin 0 → Fin S8192x5000.rank)
  natLt_1_32 : 1 < 32
  reducesTo_S8192x5000_S_d0_1 : S8192x5000.ReducesTo [0, 1] S_
  h_S_ : 0 < S_.numel

variable [Facts₀]

class Facts : Prop extends Facts₀ where

variable [Facts]
-- ==== Proof.Spec.lean ====
/-
  The masked binary cross-entropy, as one function of the two argument arrays on the extended reals.

  For a probability `x` and an integer label `t` the loss term is
      -log x            when t = 1,
      -log (1 + (-x))   when t = 0,
      0                 otherwise (the label "ignore"),
  and the element is MARKED (counts towards the denominator) exactly when t is 0 or 1. The result is
      cost = (sum of all terms) / (number of marked elements).

  The arrays have 8192 rows of 5000 entries. Addition on the extended reals is commutative and associative (it is
  a commutative monoid, with ⊤ + ⊥ = ⊥), so the total over all 8192 × 5000 entries may be taken in any grouping: in
  particular as 64 consecutive blocks of 128 rows, each block summed row by row (`sum_blocks`). No finiteness of
  the entries is needed for that.
-/
import Idealize.ShloMosaic.PureOps.Ideal
import Idealize.ShloMosaic.Lib.ValueIdx

noncomputable section

open scoped BigOperators

namespace Cert.MaskedLoss

open Idealize.ShloMosaic Idealize.ShloMosaic.ValueIdx

/-- The shape of the two argument arrays. -/
abbrev Arr : Shape := ⟨2, ![8192, 5000]⟩

/-- One element's loss term: `-log x` at label 1, `-log1p (-x)` at label 0, `0` at any other label. -/
def term (x : EReal) (t : BitVec 32) : EReal :=
  Scalar.select (IntOp.cmpi .eq t 1#32) (-(Ideal.log x))
    (Scalar.select (IntOp.cmpi .eq t 0#32) (-(Ideal.log1p (-x))) 0)

/-- One element's mark as a 32-bit word: 1 when the label is 0 or 1, else 0. -/
def mark (t : BitVec 32) : BitVec 32 :=
  (IntOp.ori (IntOp.cmpi .eq t 1#32) (IntOp.cmpi .eq t 0#32)).setWidth 32

/-- The mark read as an extended real (the word read as a signed integer). -/
def markVal (t : BitVec 32) : EReal := (((mark t).toInt : ℝ) : EReal)

/-- The numerator: every element's loss term, summed. -/
def lossSum (x : Arr.Idx → EReal) (t : Arr.Idx → BitVec 32) : EReal := ∑ j, term (x j) (t j)

/-- The denominator: every element's mark, summed. -/
def markSum (t : Arr.Idx → BitVec 32) : EReal := ∑ j, markVal (t j)

/-- The masked mean. -/
abbrev cost (x : Arr.Idx → EReal) (t : Arr.Idx → BitVec 32) : EReal := Ideal.div (lossSum x t) (markSum t)

/-! ## Sixty-four blocks of 128 rows -/

/-- Row `r` of block `b` is row `128 b + r` of the array. -/
def row (b : Fin 64) (r : Fin 128) : Fin 8192 := ⟨128 * b.val + r.val, by omega⟩

/-- Every row of the array is row `r` of block `b` for exactly one pair `(b, r)`: quotient and remainder by 128. -/
def rowEquiv : Fin 64 × Fin 128 ≃ Fin 8192 where
  toFun p := row p.1 p.2
  invFun i := (⟨i.val / 128, by omega⟩, ⟨i.val % 128, by omega⟩)
  left_inv p := by
    obtain ⟨b, r⟩ := p
    refine Prod.ext (Fin.ext ?_) (Fin.ext ?_)
    · show (128 * b.val + r.val) / 128 = b.val
      omega
    · show (128 * b.val + r.val) % 128 = r.val
      omega
  right_inv i := Fin.ext (by show 128 * (i.val / 128) + i.val % 128 = i.val; omega)

/-- A sum over the whole array is the sum over the blocks of the sum over each block's rows and columns. -/
theorem sum_blocks {M : Type*} [AddCommMonoid M] (f : Arr.Idx → M) :
    ∑ j, f j = ∑ b : Fin 64, ∑ r : Fin 128, ∑ c : Fin 5000, f (ix2 (row b r) c) := by
  rw [sum_idx2, ← Equiv.sum_comp rowEquiv, Fintype.sum_prod_type]
  rfl

/-- Block `b`'s share of the numerator. -/
def blockLoss (x : Arr.Idx → EReal) (t : Arr.Idx → BitVec 32) (b : Fin 64) : EReal :=
  ∑ r : Fin 128, ∑ c : Fin 5000, term (x (ix2 (row b r) c)) (t (ix2 (row b r) c))

/-- Block `b`'s share of the denominator. -/
def blockMark (t : Arr.Idx → BitVec 32) (b : Fin 64) : EReal :=
  ∑ r : Fin 128, ∑ c : Fin 5000, markVal (t (ix2 (row b r) c))

/-- The same shares indexed by a natural number (zero past the last block), so that a running total over the first
    `n + 1` blocks is a sum over `Finset.range (n + 1)`. -/
def blockLossN (x : Arr.Idx → EReal) (t : Arr.Idx → BitVec 32) (s : ℕ) : EReal :=
  if h : s < 64 then blockLoss x t ⟨s, h⟩ else 0

def blockMarkN (t : Arr.Idx → BitVec 32) (s : ℕ) : EReal :=
  if h : s < 64 then blockMark t ⟨s, h⟩ else 0

/-- The numerator is the total of the 64 blocks' shares. -/
theorem lossSum_range (x : Arr.Idx → EReal) (t : Arr.Idx → BitVec 32) :
    lossSum x t = ∑ s ∈ Finset.range 64, blockLossN x t s := by
  rw [← Fin.sum_univ_eq_sum_range (blockLossN x t) 64]
  unfold lossSum
  rw [sum_blocks]
  exact Finset.sum_congr rfl fun b _ => by
    unfold blockLossN
    rw [dif_pos b.isLt]
    rfl

/-- The denominator is the total of the 64 blocks' shares. -/
theorem markSum_range (t : Arr.Idx → BitVec 32) :
    markSum t = ∑ s ∈ Finset.range 64, blockMarkN t s := by
  rw [← Fin.sum_univ_eq_sum_range (blockMarkN t) 64]
  unfold markSum
  rw [sum_blocks]
  exact Finset.sum_congr rfl fun b _ => by
    unfold blockMarkN
    rw [dif_pos b.isLt]
    rfl

end Cert.MaskedLoss

end
-- ==== Proof.Pieces.lean ====
/-
  What each control case of the kernel body leaves behind, as values.

  The body keeps two one-element accumulators across the 64 row blocks: a running sum of the per-element loss
  terms and a running count of the labelled elements. At the first block both are reset to zero before the block's
  contribution is added; at every later block the contribution is added to what the previous block left; at the
  last block the two accumulators are, in addition, copied to the two one-element outputs.

  Each lemma below reads one of these stores back as a pure function of the block of probabilities `x0`, the block
  of labels `x1` and (after the first block) the accumulators' previous contents `xs0`, `xs1`:
    sum accumulator   = (previous sum, or the zero splat)   + the block's sum of loss terms     (`k0_pay7`)
    count accumulator = (previous count, or the zero splat) + the block's count of labelled elements (`k0_pay1` of `k0_pay6`)
  for any float instance.
-/
import proofs.«144332_j24773371364065_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The origin of a two-axis block, as the constant-zero offset. -/
theorem hz : (![0, 0] : Fin 2 → Nat) = fun _ => 0 := funext fun a => by fin_cases a <;> rfl

/-- First block: the sum accumulator is reset to zero, read back, and left at `0 + (block's sum of loss terms)`. -/
theorem sumFirst (c : Dev nD) (i : grid0.Coords) (a1 : Memref sig .tc .vmem S128x5000 .f32) (h1 : a1.IsWhole)
    (a2 : Memref sig .tc .vmem S128x5000 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : cond0_0 i) (hc1 : ¬cond0_1 i)
    (x0 : Vec F S128x5000 .f32) (x1 : Vec F S128x5000 .i32) :
    sout0_A_0 c i a1 h1 a2 h2 a3 h3 a4 h4 a5 h5 a6 h6 hc0 hc1 x0 x1 = k0_pay7 x0 x1 (k0_pay2 (F := F)) := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S128x5000) hz]

/-- First block: the count accumulator is reset to zero, read back, and left at `0 + (block's count of labelled elements)`. -/
theorem cntFirst (c : Dev nD) (i : grid0.Coords) (a1 : Memref sig .tc .vmem S128x5000 .f32) (h1 : a1.IsWhole)
    (a2 : Memref sig .tc .vmem S128x5000 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : cond0_0 i) (hc1 : ¬cond0_1 i)
    (x0 : Vec F S128x5000 .f32) (x1 : Vec F S128x5000 .i32) :
    sout0_A_1 c i a1 h1 a2 h2 a3 h3 a4 h4 a5 h5 a6 h6 hc0 hc1 x0 x1 = k0_pay1 (k0_pay6 x1) (k0_pay3 (F := F)) := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S128x5000) hz]

/-- A middle block: the sum accumulator holding `xs0` is left at `xs0 + (block's sum of loss terms)`. -/
theorem sumMid (c : Dev nD) (i : grid0.Coords) (a1 : Memref sig .tc .vmem S128x5000 .f32) (h1 : a1.IsWhole)
    (a2 : Memref sig .tc .vmem S128x5000 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : ¬cond0_1 i)
    (x0 : Vec F S128x5000 .f32) (x1 : Vec F S128x5000 .i32) (xs0 xs1 : Vec F S1x1 .f32) :
    sout0_B_0 c i a1 h1 a2 h2 a3 h3 a4 h4 a5 h5 a6 h6 hc0 hc1 x0 x1 xs0 xs1 = k0_pay7 x0 x1 xs0 := by
  unfold sout0_B_0
  rw [View.read_writes_eq_canon _ _ _ (scover0_B_0 c i a1 h1 a2 h2 a3 h3 a4 h4 a5 h5 a6 h6 hc0 hc1 x0 x1 xs0 xs1)]
  unfold kernelRun0_B
  dsimp only
  sl_unfold_words
  rw [View.canon_unit_zero hz]
  simp only [View.readAt_eq_ld, h1.read_unread, h2.read_unread, h5.read_unread, h6.read_unread, View.ld_unit_zero (S := S128x5000) hz, View.ld_unit_zero (S := S1x1) hz]

/-- A middle block: the count accumulator holding `xs1` is left at `xs1 + (block's count of labelled elements)`. -/
theorem cntMid (c : Dev nD) (i : grid0.Coords) (a1 : Memref sig .tc .vmem S128x5000 .f32) (h1 : a1.IsWhole)
    (a2 : Memref sig .tc .vmem S128x5000 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : ¬cond0_1 i)
    (x0 : Vec F S128x5000 .f32) (x1 : Vec F S128x5000 .i32) (xs0 xs1 : Vec F S1x1 .f32) :
    sout0_B_1 c i a1 h1 a2 h2 a3 h3 a4 h4 a5 h5 a6 h6 hc0 hc1 x0 x1 xs0 xs1 = k0_pay1 (k0_pay6 x1) xs1 := by
  unfold sout0_B_1
  rw [View.read_writes_eq_canon _ _ _ (scover0_B_1 c i a1 h1 a2 h2 a3 h3 a4 h4 a5 h5 a6 h6 hc0 hc1 x0 x1 xs0 xs1)]
  unfold kernelRun0_B
  dsimp only
  sl_unfold_words
  rw [View.canon_unit_zero hz]
  simp only [View.readAt_eq_ld, h1.read_unread, h2.read_unread, h5.read_unread, h6.read_unread, View.ld_unit_zero (S := S128x5000) hz, View.ld_unit_zero (S := S1x1) hz]

/-- Last block: the sum accumulator holding `xs0` is left at `xs0 + (block's sum of loss terms)`. -/
theorem sumLast (c : Dev nD) (i : grid0.Coords) (a1 : Memref sig .tc .vmem S128x5000 .f32) (h1 : a1.IsWhole)
    (a2 : Memref sig .tc .vmem S128x5000 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 : Vec F S128x5000 .f32) (x1 : Vec F S128x5000 .i32) (xs0 xs1 : Vec F S1x1 .f32) :
    sout0_C_0 c i a1 h1 a2 h2 a3 h3 a4 h4 a5 h5 a6 h6 hc0 hc1 x0 x1 xs0 xs1 = k0_pay7 x0 x1 xs0 := by
  unfold sout0_C_0
  rw [View.read_writes_eq_canon _ _ _ (scover0_C_0 c i a1 h1 a2 h2 a3 h3 a4 h4 a5 h5 a6 h6 hc0 hc1 x0 x1 xs0 xs1)]
  unfold kernelRun0_C
  dsimp only
  sl_unfold_words
  rw [View.canon_unit_zero hz]
  simp only [View.readAt_eq_ld, h1.read_unread, h2.read_unread, h5.read_unread, h6.read_unread, View.ld_unit_zero (S := S128x5000) hz, View.ld_unit_zero (S := S1x1) hz]

/-- Last block: the count accumulator holding `xs1` is left at `xs1 + (block's count of labelled elements)`. -/
theorem cntLast (c : Dev nD) (i : grid0.Coords) (a1 : Memref sig .tc .vmem S128x5000 .f32) (h1 : a1.IsWhole)
    (a2 : Memref sig .tc .vmem S128x5000 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 : Vec F S128x5000 .f32) (x1 : Vec F S128x5000 .i32) (xs0 xs1 : Vec F S1x1 .f32) :
    sout0_C_1 c i a1 h1 a2 h2 a3 h3 a4 h4 a5 h5 a6 h6 hc0 hc1 x0 x1 xs0 xs1 = k0_pay1 (k0_pay6 x1) xs1 := by
  unfold sout0_C_1
  rw [View.read_writes_eq_canon _ _ _ (scover0_C_1 c i a1 h1 a2 h2 a3 h3 a4 h4 a5 h5 a6 h6 hc0 hc1 x0 x1 xs0 xs1)]
  unfold kernelRun0_C
  dsimp only
  sl_unfold_words
  rw [View.canon_unit_zero hz]
  simp only [View.readAt_eq_ld, h1.read_unread, h2.read_unread, h5.read_unread, h6.read_unread, View.ld_unit_zero (S := S128x5000) hz, View.ld_unit_zero (S := S1x1) hz]

/-- Last block: the first output receives the sum accumulator's final contents. -/
theorem sumOut (c : Dev nD) (i : grid0.Coords) (a1 : Memref sig .tc .vmem S128x5000 .f32) (h1 : a1.IsWhole)
    (a2 : Memref sig .tc .vmem S128x5000 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 : Vec F S128x5000 .f32) (x1 : Vec F S128x5000 .i32) (xs0 xs1 : Vec F S1x1 .f32) :
    out0_C_2 c i a1 h1 a2 h2 a3 h3 a4 h4 a5 h5 a6 h6 hc0 hc1 x0 x1 xs0 xs1 = k0_pay7 x0 x1 xs0 := by
  unfold out0_C_2
  rw [View.read_writes_eq_canon _ _ _ (cover0_C_2 c i a1 h1 a2 h2 a3 h3 a4 h4 a5 h5 a6 h6 hc0 hc1 x0 x1 xs0 xs1)]
  unfold kernelRun0_C
  dsimp only
  sl_unfold_words
  rw [View.canon_unit_zero hz, View.readCov_unit_zero (S := S1x1) _ hz]
  simp only [View.readAt_eq_ld, h1.read_unread, h2.read_unread, h5.read_unread, h6.read_unread, View.ld_unit_zero (S := S128x5000) hz, View.ld_unit_zero (S := S1x1) hz]

/-- Last block: the second output receives the count accumulator's final contents. -/
theorem cntOut (c : Dev nD) (i : grid0.Coords) (a1 : Memref sig .tc .vmem S128x5000 .f32) (h1 : a1.IsWhole)
    (a2 : Memref sig .tc .vmem S128x5000 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 : Vec F S128x5000 .f32) (x1 : Vec F S128x5000 .i32) (xs0 xs1 : Vec F S1x1 .f32) :
    out0_C_3 c i a1 h1 a2 h2 a3 h3 a4 h4 a5 h5 a6 h6 hc0 hc1 x0 x1 xs0 xs1 = k0_pay1 (k0_pay6 x1) xs1 := by
  unfold out0_C_3
  rw [View.read_writes_eq_canon _ _ _ (cover0_C_3 c i a1 h1 a2 h2 a3 h3 a4 h4 a5 h5 a6 h6 hc0 hc1 x0 x1 xs0 xs1)]
  unfold kernelRun0_C
  dsimp only
  sl_unfold_words
  rw [View.canon_unit_zero hz, View.readCov_unit_zero (S := S1x1) _ hz]
  simp only [View.readAt_eq_ld, h1.read_unread, h2.read_unread, h5.read_unread, h6.read_unread, View.ld_unit_zero (S := S128x5000) hz, View.ld_unit_zero (S := S1x1) hz]

end Cert.KernelIdeal.Pieces

end
-- ==== Proof.BlockValue.lean ====
/-
  One block's contribution, on the extended reals.

  At each grid point the body sees a block of 128 rows × 5000 columns of probabilities `x0` and labels `x1`. It forms
  the per-element loss terms and the per-element marks, reduces each first along the columns and then along the rows
  (two single-axis sums, with unit axes re-inserted in between), and adds the two block totals to the two one-element
  accumulators. On the extended reals a single-axis sum is a finite sum over that axis's coordinate and the unit-axis
  re-layouts move nothing, so the two-stage reduction of a block `v` is the double sum
      Σ_{r < 128} Σ_{c < 5000} v (r, c)                                              (`twoStage_apply`)
  and the payloads the body stores are
      sum   accumulator ↦ acc + Σ_r Σ_c term (x0 (r, c)) (x1 (r, c))                  (`sum_payload`)
      count accumulator ↦ acc + Σ_r Σ_c markVal (x1 (r, c))                           (`cnt_payload`).
  The kernel writes `-y` as `0 - y`; on the extended reals these agree for every `y`, infinite ones included.
  The accumulators' reset value is the zero word, the extended real 0.
-/
import proofs.«144332_j24773371364065_1_alg».proof.Proof.Gen.KernelIdeal.Skeleton
import proofs.«144332_j24773371364065_1_alg».proof.Proof.Spec
import Idealize.ShloMosaic.PureOps.Ideal.Laws
import Idealize.ShloMosaic.Lib.Pipeline.Value
import Idealize.ShloMosaic.Lib.ValueIdx

noncomputable section

open scoped BigOperators
open Idealize.ShloMosaic Idealize.ShloMosaic.ValueIdx

namespace Cert.KernelIdeal.Block

open Cert.KernelIdeal Cert.KernelIdeal.Gen Cert.MaskedLoss

/-- A block reduced along its columns, then along its rows, with the unit axes the body inserts in between. -/
def twoStage (v : FVec Ideal S128x5000 .f32) : FVec Ideal S1x1 .f32 :=
  shapeCast S1x1 (multiReduction .add [0] S1 (shapeCast S128x1 (multiReduction .add [1] S128 v 0x00000000#32 reduces_S128x5000_S128 (.inl rfl) rfl) shapeCasts_S128_S128x1) 0x00000000#32 reduces_S128x1_S1 (.inl rfl) rfl) shapeCasts_S1_S1x1

/-- The two-stage reduction is the double sum over rows and columns: the outer [1] → [1,1] and inner [128] → [128,1]
    re-layouts keep row-major positions, the row sum runs over `(r, 0)`, the column sum of row `r` over `(r, c)`. -/
theorem twoStage_apply (v : FVec Ideal S128x5000 .f32) (j : S1x1.Idx) :
    twoStage v j = ∑ r : Fin 128, ∑ c : Fin 5000, v (ix2 r c) := by
  unfold twoStage
  refine (shapeCast_apply _ shapeCasts_S1_S1x1 j (ix1 (0 : Fin 1)) ?_).trans ?_
  · rw [Shape.rowMajor_val_one, Shape.rowMajor_val_two]
    have h0 : (j 0).val < 1 := (j 0).isLt
    have h1 : (j 1).val < 1 := (j 1).isLt
    show 0 = (j 0).val * 1 + (j 1).val
    omega
  refine (Ideal.multiReduction_add_single _ 0x00000000#32 reduces_S128x1_S1 (.inl rfl) rfl (ix1 (0 : Fin 1))).trans ?_
  refine Finset.sum_congr rfl fun r _ => ?_
  refine (shapeCast_apply _ shapeCasts_S128_S128x1 _ (ix1 r) ?_).trans ?_
  · rw [Shape.rowMajor_val_one, Shape.rowMajor_val_two]
    have e0 : (reduces_S128x1_S1.lift (ix1 (0 : Fin 1)) r 0).val = r.val := rfl
    have e1 : (reduces_S128x1_S1.lift (ix1 (0 : Fin 1)) r 1).val = 0 := rfl
    show r.val = (reduces_S128x1_S1.lift (ix1 (0 : Fin 1)) r 0).val * 1 + (reduces_S128x1_S1.lift (ix1 (0 : Fin 1)) r 1).val
    omega
  refine (Ideal.multiReduction_add_single v 0x00000000#32 reduces_S128x5000_S128 (.inl rfl) rfl (ix1 r)).trans ?_
  refine Finset.sum_congr rfl fun c _ => congrArg v ?_
  funext a
  match a with
  | ⟨0, _⟩ => rfl
  | ⟨1, _⟩ => rfl

/-- The block of loss terms as the body computes it: two nested selects on the label tests, negation written `0 - ·`. -/
def lossVec (x0 : Vec Ideal S128x5000 .f32) (x1 : Vec Ideal S128x5000 .i32) : FVec Ideal S128x5000 .f32 :=
  select (k0_pay4 x1) (subf (broadcast S128x5000 (Scalar.ofBits .f32 0x00000000#32)) (log x0))
    (select (k0_pay5 x1)
      (subf (broadcast S128x5000 (Scalar.ofBits .f32 0x00000000#32))
        (log1p (subf (broadcast S128x5000 (Scalar.ofBits .f32 0x00000000#32)) x0)))
      (broadcast S128x5000 (Scalar.ofBits .f32 0x00000000#32)))

/-- The block of marks as the body computes it: the two label tests or-ed, widened to a word, converted. -/
def markVec (x1 : Vec Ideal S128x5000 .i32) : FVec Ideal S128x5000 .f32 :=
  sitofp .f32 (extui 32 (ori (k0_pay4 x1) (k0_pay5 x1)) natLt_1_32)

/-- The sum accumulator's stored value: the old contents plus the two-stage reduction of the loss terms. -/
theorem pay7_eq (x0 : Vec Ideal S128x5000 .f32) (x1 : Vec Ideal S128x5000 .i32) (acc : Vec Ideal S1x1 .f32) :
    k0_pay7 x0 x1 acc = shapeCast S1x1 (addf acc (twoStage (lossVec x0 x1))) shapeCasts_S1x1_S1x1 := rfl

/-- The block's count: the two-stage reduction of the marks. -/
theorem pay6_eq (x1 : Vec Ideal S128x5000 .i32) : k0_pay6 x1 = twoStage (markVec x1) := rfl

/-- The count accumulator's stored value: the old contents plus the block's count. -/
theorem pay1_eq (v30 : FVec Ideal S1x1 .f32) (v36 : Vec Ideal S1x1 .f32) :
    k0_pay1 v30 v36 = shapeCast S1x1 (addf v36 v30) shapeCasts_S1x1_S1x1 := rfl

/-- Element by element the body's loss vector is the specification's term: `0 - y = -y` on the extended reals. -/
theorem lossVec_apply (x0 : Vec Ideal S128x5000 .f32) (x1 : Vec Ideal S128x5000 .i32) (i : S128x5000.Idx) :
    lossVec x0 x1 i = term (x0 i) (x1 i) := by
  unfold lossVec term k0_pay4 k0_pay5
  simp only [select, subf, log, log1p, broadcast, cmpi, Ideal.subf_def, Ideal.log_def, Ideal.log1p_def, Scalar.ofBits,
    Ideal.ofBits_def, Ideal.ofBits_zero_f32, zero_sub]

/-- Element by element the body's mark vector is the specification's mark, converted. -/
theorem markVec_apply (x1 : Vec Ideal S128x5000 .i32) (i : S128x5000.Idx) :
    markVec x1 i = markVal (x1 i) := by
  unfold markVec markVal mark k0_pay4 k0_pay5
  rfl

/-- What the body stores into the sum accumulator: its old contents plus the block's double sum of loss terms. -/
theorem sum_payload (x0 : Vec Ideal S128x5000 .f32) (x1 : Vec Ideal S128x5000 .i32) (acc : Vec Ideal S1x1 .f32)
    (j : S1x1.Idx) :
    k0_pay7 x0 x1 acc j = acc j + ∑ r : Fin 128, ∑ c : Fin 5000, term (x0 (ix2 r c)) (x1 (ix2 r c)) := by
  rw [pay7_eq, shapeCast_self]
  show acc j + twoStage (lossVec x0 x1) j = _
  rw [twoStage_apply]
  simp only [lossVec_apply]

/-- What the body stores into the count accumulator: its old contents plus the block's double sum of marks. -/
theorem cnt_payload (x1 : Vec Ideal S128x5000 .i32) (acc : Vec Ideal S1x1 .f32) (j : S1x1.Idx) :
    k0_pay1 (k0_pay6 x1) acc j = acc j + ∑ r : Fin 128, ∑ c : Fin 5000, markVal (x1 (ix2 r c)) := by
  rw [pay1_eq, pay6_eq, shapeCast_self]
  show acc j + twoStage (markVec x1) j = _
  rw [twoStage_apply]
  simp only [markVec_apply]

/-- The reset value of the sum accumulator is the extended real zero. -/
theorem zero_sum (j : S1x1.Idx) : k0_pay2 (F := Ideal) j = 0 := by
  unfold k0_pay2
  rw [shapeCast_self]
  simp only [broadcast, Scalar.ofBits, Ideal.ofBits_def, Ideal.ofBits_zero_f32]

/-- The reset value of the count accumulator is the extended real zero. -/
theorem zero_cnt (j : S1x1.Idx) : k0_pay3 (F := Ideal) j = 0 := by
  unfold k0_pay3
  rw [shapeCast_self]
  simp only [broadcast, Scalar.ofBits, Ideal.ofBits_def, Ideal.ofBits_zero_f32]

end Cert.KernelIdeal.Block

end
-- ==== Proof.Accum.lean ====
/-
  The running totals.

  Grid point `t` (0 ≤ t < 64) stages rows 128 t … 128 t + 127 of both argument arrays: entry `(r, c)` of the block is
  entry `(128 t + r, c)` of the array (`blk0_apply`, `blk1_apply`). So the block's contribution at point `t` is the
  specification's share of block `t` (`step_sum`, `step_cnt`), and by induction on the point the two accumulators
  hold, after point `n`,
      Σ_{s ≤ n} (share of block s)
  of the numerator and of the denominator (`acc_eq`). The first point starts from the reset value 0; every later
  point adds to what the point before left; the last point also copies both accumulators to the outputs (`out_eq`).
-/
import proofs.«144332_j24773371364065_1_alg».proof.Proof.Gen.KernelIdeal.Frame
import proofs.«144332_j24773371364065_1_alg».proof.Proof.Spec
import proofs.«144332_j24773371364065_1_alg».proof.Proof.Pieces
import proofs.«144332_j24773371364065_1_alg».proof.Proof.BlockValue
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.MaskedLoss Cert.KernelIdeal.Block

variable (m : (ℓ : Loc nD τ sig) → Buf (Elt Ideal) ℓ)

/-- The array of probabilities and the array of labels on core `c`, as the run finds them. -/
abbrev X (c : Dev nD) : Arr.Idx → EReal := m ((c : Thread nD τ).loc main_arg0)
abbrev T (c : Dev nD) : Arr.Idx → BitVec 32 := m ((c : Thread nD τ).loc main_arg1)

/-- Both input windows step one block of rows per grid point and never move along the columns. -/
theorem idx_facts0 : ∀ t : Fin cfg0.N, win0_0.index t 0 = t.val ∧ win0_0.index t 1 = 0 :=
  (by decide +kernel : ∀ t : Fin grid0.N, win0_0.index t 0 = t.val ∧ win0_0.index t 1 = 0)
theorem idx_facts1 : ∀ t : Fin cfg0.N, win0_1.index t 0 = t.val ∧ win0_1.index t 1 = 0 :=
  (by decide +kernel : ∀ t : Fin grid0.N, win0_1.index t 0 = t.val ∧ win0_1.index t 1 = 0)

/-- Entry `(r, c)` of the probabilities' block at point `t` is entry `(128 t + r, c)` of the array. -/
theorem blk0_apply (c : Dev nD) (t : Fin cfg0.N) (b : Fin 64) (hb : b.val = t.val) (r : Fin 128) (cc : Fin 5000) :
    (iblk m c 0 t : Vec Ideal S128x5000 .f32) (ix2 r cc) = X m c (ix2 (row b r) cc) := by
  unfold iblk
  rw [View.read_apply]
  show V m c main_arg0 _ = m (c.tc.loc main_arg0) _
  rw [V_main_arg0]
  refine congrArg (m (c.tc.loc main_arg0)) ?_
  funext a
  apply Fin.ext
  match a with
  | ⟨0, _⟩ => show win0_0.index t 0 * 128 + 1 * r.val = 128 * b.val + r.val
              rw [(idx_facts0 t).1, hb]; omega
  | ⟨1, _⟩ => show win0_0.index t 1 * 5000 + 1 * cc.val = cc.val
              rw [(idx_facts0 t).2]; omega

/-- Entry `(r, c)` of the labels' block at point `t` is entry `(128 t + r, c)` of the array. -/
theorem blk1_apply (c : Dev nD) (t : Fin cfg0.N) (b : Fin 64) (hb : b.val = t.val) (r : Fin 128) (cc : Fin 5000) :
    (iblk m c 1 t : Vec Ideal S128x5000 .i32) (ix2 r cc) = T m c (ix2 (row b r) cc) := by
  unfold iblk
  rw [View.read_apply]
  show V m c main_arg1 _ = m (c.tc.loc main_arg1) _
  rw [V_main_arg1]
  refine congrArg (m (c.tc.loc main_arg1)) ?_
  funext a
  apply Fin.ext
  match a with
  | ⟨0, _⟩ => show win0_1.index t 0 * 128 + 1 * r.val = 128 * b.val + r.val
              rw [(idx_facts1 t).1, hb]; omega
  | ⟨1, _⟩ => show win0_1.index t 1 * 5000 + 1 * cc.val = cc.val
              rw [(idx_facts1 t).2]; omega

/-- The double sum of loss terms over the blocks staged at point `t` is block `t`'s share of the numerator. -/
theorem block_loss_at (c : Dev nD) (t : Fin cfg0.N) :
    ∑ r : Fin 128, ∑ cc : Fin 5000, term ((iblk m c 0 t : Vec Ideal S128x5000 .f32) (ix2 r cc))
        ((iblk m c 1 t : Vec Ideal S128x5000 .i32) (ix2 r cc))
      = blockLossN (X m c) (T m c) t.val := by
  have hN : t.val < 64 := lt_of_lt_of_eq t.isLt (show cfg0.N = 64 from N_0)
  unfold blockLossN
  rw [dif_pos hN]
  unfold blockLoss
  refine Finset.sum_congr rfl fun r _ => Finset.sum_congr rfl fun cc _ => ?_
  rw [blk0_apply m c t ⟨t.val, hN⟩ rfl r cc, blk1_apply m c t ⟨t.val, hN⟩ rfl r cc]

/-- The double sum of marks over the labels' block staged at point `t` is block `t`'s share of the denominator. -/
theorem block_mark_at (c : Dev nD) (t : Fin cfg0.N) :
    ∑ r : Fin 128, ∑ cc : Fin 5000, markVal ((iblk m c 1 t : Vec Ideal S128x5000 .i32) (ix2 r cc))
      = blockMarkN (T m c) t.val := by
  have hN : t.val < 64 := lt_of_lt_of_eq t.isLt (show cfg0.N = 64 from N_0)
  unfold blockMarkN
  rw [dif_pos hN]
  unfold blockMark
  refine Finset.sum_congr rfl fun r _ => Finset.sum_congr rfl fun cc _ => ?_
  rw [blk1_apply m c t ⟨t.val, hN⟩ rfl r cc]

/-- One step of the sum accumulator at point `t`: its contents plus block `t`'s share of the numerator. -/
theorem step_sum (c : Dev nD) (t : Fin cfg0.N) (acc : Vec Ideal S1x1 .f32) (j : S1x1.Idx) :
    k0_pay7 (iblk m c 0 t) (iblk m c 1 t) acc j = acc j + blockLossN (X m c) (T m c) t.val :=
  (sum_payload (iblk m c 0 t) (iblk m c 1 t) acc j).trans (congrArg (acc j + ·) (block_loss_at m c t))

/-- One step of the count accumulator at point `t`: its contents plus block `t`'s share of the denominator. -/
theorem step_cnt (c : Dev nD) (t : Fin cfg0.N) (acc : Vec Ideal S1x1 .f32) (j : S1x1.Idx) :
    k0_pay1 (k0_pay6 (iblk m c 1 t)) acc j = acc j + blockMarkN (T m c) t.val :=
  (cnt_payload (iblk m c 1 t) acc j).trans (congrArg (acc j + ·) (block_mark_at m c t))

/-- After point `n` the two accumulators hold the first `n + 1` blocks' shares of numerator and denominator. -/
theorem acc_eq (c : Dev nD) : ∀ (n : ℕ) (h : n < cfg0.N) (j : S1x1.Idx),
    (outsAt0 m c n h).2.2.1 j = ∑ s ∈ Finset.range (n + 1), blockLossN (X m c) (T m c) s
    ∧ (outsAt0 m c n h).2.2.2 j = ∑ s ∈ Finset.range (n + 1), blockMarkN (T m c) s
  | 0, h, j => by
    have hA := outsAt0_A m c ⟨0, h⟩ rfl (show ¬(⟨0, h⟩ : Fin cfg0.N).val % 64 = 63 by dsimp only; omega)
    dsimp only at hA
    rw [hA]
    dsimp only
    rw [Pieces.sumFirst, Pieces.cntFirst]
    rw [step_sum m c ⟨0, h⟩ _ j, step_cnt m c ⟨0, h⟩ _ j, zero_sum, zero_cnt, zero_add, zero_add,
      Finset.sum_range_one, Finset.sum_range_one]
    exact ⟨rfl, zero_add _⟩
  | n + 1, h, j => by
    have hN : cfg0.N = 64 := N_0
    have h0 : ¬(⟨n + 1, h⟩ : Fin cfg0.N).val % 64 = 0 := by dsimp only; omega
    have ih := acc_eq c n (Nat.lt_of_succ_lt h) j
    rw [Finset.sum_range_succ _ (n + 1), Finset.sum_range_succ _ (n + 1), ← ih.1, ← ih.2]
    by_cases h1 : (⟨n + 1, h⟩ : Fin cfg0.N).val % 64 = 63
    · have hC := outsAt0_C m c ⟨n + 1, h⟩ h0 h1
      dsimp only at hC
      rw [hC]
      dsimp only
      rw [Pieces.sumLast, Pieces.cntLast]
      exact ⟨step_sum m c ⟨n + 1, h⟩ _ j, step_cnt m c ⟨n + 1, h⟩ _ j⟩
    · have hB := outsAt0_B m c ⟨n + 1, h⟩ h0 h1
      dsimp only at hB
      rw [hB]
      dsimp only
      rw [Pieces.sumMid, Pieces.cntMid]
      exact ⟨step_sum m c ⟨n + 1, h⟩ _ j, step_cnt m c ⟨n + 1, h⟩ _ j⟩

/-- At the last point the two outputs receive the accumulators' final contents: the whole numerator and the whole
    denominator, the 64 blocks' shares added up. -/
theorem out_eq (c : Dev nD) (t : Fin cfg0.N) (h63 : t.val % 64 = 63) (j : S1x1.Idx) :
    (outsAt0 m c t.val t.isLt).1 j = lossSum (X m c) (T m c)
    ∧ (outsAt0 m c t.val t.isLt).2.1 j = markSum (T m c) := by
  have hN : cfg0.N = 64 := N_0
  have ht : t.val = 63 := by have := t.isLt; omega
  have h0 : ¬t.val % 64 = 0 := by omega
  have ih := acc_eq m c (t.val - 1) (Nat.lt_of_le_of_lt (Nat.sub_le _ _) t.isLt) j
  have e : t.val - 1 + 1 = 63 := by omega
  rw [e] at ih
  rw [outsAt0_C m c t h0 h63]
  dsimp only
  rw [Pieces.sumOut, Pieces.cntOut, step_sum m c t _ j, step_cnt m c t _ j, ih.1, ih.2,
    lossSum_range, markSum_range, Finset.sum_range_succ _ 63, Finset.sum_range_succ _ 63, ht]
  exact ⟨rfl, rfl⟩

end Cert.KernelIdeal.Accum

end
-- ==== Proof.KernelValue.lean ====
/-
  From the accumulators to the program's result.

  The region has two one-element outputs. Each is written back once, after the last grid point, and its single block
  is the whole one-element array. So if the last point leaves the value `L` in the first output's buffer and `M` in
  the second's, the two arrays end holding `L` and `M` (`final_fst`, `final_snd`). After the region the program re-lays
  both outputs as scalars and divides the first by the second: the result is `L / M` (`tail_eq`), whatever the two
  extended reals `L` and `M` are. (They are kept as variables here; Proof/KernelRun.lean puts the numerator and the
  denominator of the masked mean in their place.)
-/
import proofs.«144332_j24773371364065_1_alg».proof.Defs
import proofs.«144332_j24773371364065_1_alg».proof.Proof.Gen.KernelIdeal.Frame
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The last of the 64 grid points: the only one after which the outputs are written back. -/
abbrev lastPt : Fin cfg0.N := ⟨63, lt_of_lt_of_eq (by decide : 63 < 64) N_0.symm⟩

/-- A write-back of the first output happens at the last point only; it writes what that point left there. -/
theorem flushed_fst (c : Dev nD) (L : EReal)
    (hL : ∀ t : Fin cfg0.N, t.val % 64 = 63 → ∀ j : S1x1.Idx, (outsAt0 m c t.val t.isLt).1 j = L)
    (t : Fin cfg0.N) (hf : (cfg0.win 2).flush t = true) :
    (dats m 0 c).flushed 2 t
      = ((cfg0.win 2).blk t).view.read (Elt Ideal) (fun _ => L : Buf (Elt Ideal) ((c : Thread nD τ).loc main_call0_v0_0)) := by
  have h63 := (flush0_2 t).mp hf
  funext y
  rw [View.read_apply]
  show (dats m 0 c).after 2 t _ = _
  rw [after0_2]
  exact hL t h63 _

/-- The first output's one block covers its one element, so the array ends holding that value. -/
theorem final_fst (c : Dev nD) (L : EReal)
    (hL : ∀ t : Fin cfg0.N, t.val % 64 = 63 → ∀ j : S1x1.Idx, (outsAt0 m c t.val t.isLt).1 j = L) :
    (dats m 0 c).arrAt 2 cfg0.N = (fun _ => L : Buf (Elt Ideal) ((c : Thread nD τ).loc main_call0_v0_0)) :=
  (dats m 0 c).arrAt_eq_of_cover 2 _ (flushed_fst m c L hL) fun i =>
    ⟨lastPt, (flush0_2 lastPt).mpr rfl, by
      show i ∈ ((View.whole main_call0_v0_0).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 1 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 1 from by decide +kernel]; omega⟩

/-- A write-back of the second output happens at the last point only; it writes what that point left there. -/
theorem flushed_snd (c : Dev nD) (M : EReal)
    (hM : ∀ t : Fin cfg0.N, t.val % 64 = 63 → ∀ j : S1x1.Idx, (outsAt0 m c t.val t.isLt).2.1 j = M)
    (t : Fin cfg0.N) (hf : (cfg0.win 3).flush t = true) :
    (dats m 0 c).flushed 3 t
      = ((cfg0.win 3).blk t).view.read (Elt Ideal) (fun _ => M : Buf (Elt Ideal) ((c : Thread nD τ).loc main_call0_v0_1)) := by
  have h63 := (flush0_3 t).mp hf
  funext y
  rw [View.read_apply]
  show (dats m 0 c).after 3 t _ = _
  rw [after0_3]
  exact hM t h63 _

/-- The second output's one block covers its one element, so the array ends holding that value. -/
theorem final_snd (c : Dev nD) (M : EReal)
    (hM : ∀ t : Fin cfg0.N, t.val % 64 = 63 → ∀ j : S1x1.Idx, (outsAt0 m c t.val t.isLt).2.1 j = M) :
    (dats m 0 c).arrAt 3 cfg0.N = (fun _ => M : Buf (Elt Ideal) ((c : Thread nD τ).loc main_call0_v0_1)) :=
  (dats m 0 c).arrAt_eq_of_cover 3 _ (flushed_snd m c M hM) fun i =>
    ⟨lastPt, (flush0_3 lastPt).mpr rfl, by
      show i ∈ ((View.whole main_call0_v0_1).slice (win0_3.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_3.index lastPt 0 * win0_3.size 0 ≤ (i 0 : Nat) ∧ (i 0 : Nat) < win0_3.index lastPt 0 * win0_3.size 0 + win0_3.xsize (grid0.coords lastPt) 0
                  rw [show win0_3.index lastPt 0 * win0_3.size 0 = 0 from by decide +kernel, show win0_3.xsize (grid0.coords lastPt) 0 = 1 from by decide +kernel]; omega
      | ⟨1, _⟩ => show win0_3.index lastPt 1 * win0_3.size 1 ≤ (i 1 : Nat) ∧ (i 1 : Nat) < win0_3.index lastPt 1 * win0_3.size 1 + win0_3.xsize (grid0.coords lastPt) 1
                  rw [show win0_3.index lastPt 1 * win0_3.size 1 = 0 from by decide +kernel, show win0_3.xsize (grid0.coords lastPt) 1 = 1 from by decide +kernel]; omega⟩

/-- The host lines after the region, over any buffer contents `W` in which the two one-element results of the region
    hold `L` and `M`: both are re-laid as scalars and divided, so the program's result is `L / M`. -/
theorem tail_of (W : Valuation τ sig (Elt Ideal)) (L M : EReal)
    (h2 : W (Proc.devRef .tc main_call0_v0_0) = fun _ => L) (h3 : W (Proc.devRef .tc main_call0_v0_1) = fun _ => M) :
    StableHlo.after hostOps1 W (Proc.devRef .tc main_v0) = fun _ => Ideal.div L M := by
  after_results
  rw [h2, h3]
  funext i
  rfl

/-- The program's result after the host lines that follow the region: the first output's value over the second's. -/
theorem tail_eq (c : Dev nD) (L M : EReal)
    (hL : ∀ t : Fin cfg0.N, t.val % 64 = 63 → ∀ j : S1x1.Idx, (outsAt0 m c t.val t.isLt).1 j = L)
    (hM : ∀ t : Fin cfg0.N, t.val % 64 = 63 → ∀ j : S1x1.Idx, (outsAt0 m c t.val t.isLt).2.1 j = M) :
    Pipeline.afterTail₀ cfgs (dats m) 0 (V0 m) [hostOps1] c main_v0 = fun _ => Ideal.div L M := by
  have e2 : Pipeline.withArrays (cfgs 0).spec c (V0 m c) (fun w => (dats m 0 c).arrAt w (cfgs 0).N)
      (Proc.devRef .tc main_call0_v0_0) = fun _ => L :=
    (Pipeline.withArrays_arr spec0 launch0.win.arr_inj c (V0 m c) (fun w => (dats m 0 c).arrAt w cfg0.N) 2).trans
      (final_fst m c L hL)
  have e3 : Pipeline.withArrays (cfgs 0).spec c (V0 m c) (fun w => (dats m 0 c).arrAt w (cfgs 0).N)
      (Proc.devRef .tc main_call0_v0_1) = fun _ => M :=
    (Pipeline.withArrays_arr spec0 launch0.win.arr_inj c (V0 m c) (fun w => (dats m 0 c).arrAt w cfg0.N) 3).trans
      (final_snd m c M hM)
  unfold Pipeline.afterTail₀
  exact tail_of _ L M e2 e3

end Cert.KernelIdeal.Value

end
-- ==== Proof.KernelRun.lean ====
/-
  The kernel's program computes the masked mean.

  The last grid point leaves the whole numerator in the first output's buffer and the whole denominator in the
  second's (the running totals after all 64 blocks); the host lines after the region divide the one by the other.
  So every weakly fair execution ends with the result at
      (sum of all loss terms) / (sum of all marks) = cost
  of the argument arrays as the run found them, and with the argument arrays unchanged.
-/
import proofs.«144332_j24773371364065_1_alg».proof.Defs
import proofs.«144332_j24773371364065_1_alg».proof.Proof.Gen.KernelIdeal.Frame
import proofs.«144332_j24773371364065_1_alg».proof.Proof.Spec
import proofs.«144332_j24773371364065_1_alg».proof.Proof.Accum
import proofs.«144332_j24773371364065_1_alg».proof.Proof.KernelValue
import Idealize.ShloMosaic.Lib.Pipeline.Value

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.MaskedLoss Cert.KernelIdeal.Accum

variable (m : (ℓ : Loc nD τ sig) → Buf (Elt Ideal) ℓ) (ρ : Dev nD → PrngReg)

/-- The program's result buffer is neither scoped nor one of the region's arrays: the region leaves it to the host
    lines that follow. -/
theorem result_bypasses : main_v0 ∈ Pipeline.restRefs sig (cfgs 0).spec :=
  Pipeline.mem_restRefs_of main_v0 (by decide) (by decide)

/-- The result after the host lines: numerator over denominator. -/
theorem result_eq (c : Dev nD) :
    Pipeline.afterTail₀ cfgs (dats m) 0 (V0 m) [hostOps1] c main_v0 = fun _ => cost (X m c) (T m c) :=
  tail_eq m c (lossSum (X m c) (T m c)) (markSum (T m c)) (fun t h63 j => (out_eq m c t h63 j).1)
    (fun t h63 j => (out_eq m c t h63 j).2)

/-- The run, read. -/
theorem run : θ_run defs (onTc (τ := τ) (main (F := Ideal))) ⟨m, fun _ => 0, ρ⟩ fun r => ∀ c : Dev nD,
      r.2.mem ((c.tc : Thread nD τ).loc main_v0) = (fun _ => cost (X m c) (T m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v0 result_bypasses).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

end
-- ==== Proof.CountLaw.lean ====
/-
  Counting with 32-bit words.

  The reference counts the marked elements in integer arithmetic: it adds up 8192 × 5000 words, each 0 or 1, with
  32-bit wrap-around addition, and only then converts the total to a float. Fewer than 2^31 words that are each at
  most 1 can never wrap, nor reach the sign bit: the total, read as a signed integer, is the number of ones. Hence
  converting the total is the same as converting each word and adding the results as (extended) reals — which is
  how a float accumulator counts.
-/
import Idealize.ShloMosaic.PureOps.Reduce
import Idealize.ShloMosaic.PureOps.Ideal

noncomputable section

open scoped BigOperators

namespace Cert.MaskedLoss

open Idealize.ShloMosaic

/-- Wrap-around addition of words commutes and associates, so a reduction by it may be taken in any order. -/
instance addi_comm : Std.Commutative (IntOp.addi (w := 32)) := ⟨fun x y => BitVec.add_comm x y⟩
instance addi_assoc : Std.Associative (IntOp.addi (w := 32)) := ⟨fun x y z => BitVec.add_assoc x y z⟩

/-- Fewer than 2^32 words, each 0 or 1, add up without wrapping: the total's value is the number of ones. -/
theorem toNat_fold_addi {ι : Type*} [DecidableEq ι] (v : ι → BitVec 32) (hv : ∀ i, (v i).toNat ≤ 1) (S : Finset ι) :
    S.card < 2 ^ 32 → (S.fold IntOp.addi 0#32 v).toNat = ∑ i ∈ S, (v i).toNat := by
  induction S using Finset.induction_on with
  | empty => intro _; rfl
  | insert a S ha ih =>
    intro hc
    rw [Finset.card_insert_of_notMem ha] at hc
    have hS := ih (by omega)
    have hb : ∑ i ∈ S, (v i).toNat ≤ S.card := by
      calc ∑ i ∈ S, (v i).toNat ≤ ∑ _i ∈ S, 1 := Finset.sum_le_sum fun i _ => hv i
        _ = S.card := by simp
    rw [Finset.fold_insert ha, Finset.sum_insert ha]
    show (v a + S.fold IntOp.addi 0#32 v).toNat = _
    rw [BitVec.toNat_add, hS, Nat.mod_eq_of_lt]
    have := hv a
    omega

/-- The sum of real numbers, embedded in the extended reals, is the sum of the embedded numbers. -/
theorem coe_sum {ι : Type*} [DecidableEq ι] (S : Finset ι) (f : ι → ℝ) :
    ((∑ i ∈ S, f i : ℝ) : EReal) = ∑ i ∈ S, (f i : EReal) := by
  induction S using Finset.induction_on with
  | empty => simp
  | insert a S ha ih => rw [Finset.sum_insert ha, Finset.sum_insert ha, EReal.coe_add, ih]

/-- A word that is 0 or 1, read as a signed integer, is that 0 or 1. -/
theorem toInt_of_le_one (b : BitVec 32) (h : b.toNat ≤ 1) : b.toInt = (b.toNat : ℤ) := by
  rw [BitVec.toInt_eq_toNat_cond, if_pos (by omega)]

/-- Fewer than 2^31 words, each 0 or 1, added with wrap-around and then read as a signed integer and converted,
    give the sum of the words each read and converted by itself. -/
theorem fold_addi_convert {ι : Type*} [Fintype ι] [DecidableEq ι] (v : ι → BitVec 32) (hv : ∀ i, (v i).toNat ≤ 1)
    (hc : Fintype.card ι < 2 ^ 31) :
    ((((Finset.univ : Finset ι).fold IntOp.addi 0#32 v).toInt : ℝ) : EReal) = ∑ i, (((v i).toInt : ℝ) : EReal) := by
  have hn := toNat_fold_addi v hv Finset.univ (by rw [Finset.card_univ]; omega)
  have hb : ∑ i, (v i).toNat ≤ Fintype.card ι := by
    calc ∑ i, (v i).toNat ≤ ∑ _i : ι, 1 := Finset.sum_le_sum fun i _ => hv i
      _ = Fintype.card ι := by simp
  have hi : ((Finset.univ : Finset ι).fold IntOp.addi 0#32 v).toInt = ((∑ i, (v i).toNat : ℕ) : ℤ) := by
    rw [BitVec.toInt_eq_toNat_cond, if_pos (by rw [hn]; omega), hn]
  rw [hi, ← coe_sum]
  congr 1
  rw [Int.cast_natCast, Nat.cast_sum]
  exact Finset.sum_congr rfl fun i _ => by rw [toInt_of_le_one _ (hv i), Int.cast_natCast]

end Cert.MaskedLoss

end
-- ==== Proof.RefValue.lean ====
/-
  The reference computes the masked mean.

  Read one operation at a time, the reference's program is: the two label tests, the two candidate terms
  `-log x` and `-log1p (-x)`, two nested selects (the loss term), the or of the tests widened to a word (the mark),
  one integer sum of the marks over the whole array, one float sum of the terms over the whole array, the integer
  total converted, and the quotient. On the extended reals the float sum is `0 +` the finite sum of the terms; the
  integer sum adds 8192 × 5000 < 2^31 words that are each 0 or 1, so it cannot wrap and its conversion is the sum of
  the converted marks (the counting law). Hence the result is `cost` of the two arguments.
-/
import proofs.«144332_j24773371364065_1_alg».proof.Defs
import proofs.«144332_j24773371364065_1_alg».proof.Proof.Gen.ReferenceIdeal.Run
import proofs.«144332_j24773371364065_1_alg».proof.Proof.Gen.ReferenceIdeal.Read
import proofs.«144332_j24773371364065_1_alg».proof.Proof.Spec
import proofs.«144332_j24773371364065_1_alg».proof.Proof.CountLaw
import Idealize.ShloMosaic.PureOps.Reduce
import Idealize.ShloMosaic.Lib.ValueIdx

noncomputable section

open scoped BigOperators
open Idealize.ShloMosaic Idealize.ShloMosaic.ValueIdx

namespace Cert.ReferenceIdeal.RefValue

open Cert.ReferenceIdeal Cert.ReferenceIdeal.Gen Cert.ReferenceIdeal.Read Cert.MaskedLoss

/-- The reference's selected value at an element is the specification's loss term. -/
theorem loss_apply (x0 : Arr.Idx → EReal) (x1 : Arr.Idx → BitVec 32) (j : Arr.Idx) :
    val_main_v10 (F := Ideal) x0 x1 j = term (x0 j) (x1 j) := by
  rw [val_main_v10_apply, val_main_v1_apply, val_main_v0_apply, val_main_c_apply, val_main_v5_apply, val_main_v4_apply,
    val_main_v9_apply, val_main_v3_apply, val_main_v2_apply, val_main_c_0_apply, val_main_v8_apply, val_main_v7_apply,
    val_main_v6_apply, val_main_call0_v1_apply, val_main_call0_v0_apply, val_main_cst_apply]
  unfold term
  simp only [Ideal.hostNegf_def, Ideal.negf_def, Ideal.hostUnary_log_def, Ideal.hostUnary_log1p_def, Ideal.ofBits_def,
    Ideal.ofBits_zero_f32]

/-- The reference's widened or of the two label tests at an element is the specification's mark. -/
theorem mark_apply (x1 : Arr.Idx → BitVec 32) (j : Arr.Idx) :
    val_main_v12 (F := Ideal) x1 j = mark (x1 j) := by
  rw [val_main_v12_apply, val_main_v11_apply, val_main_v1_apply, val_main_v0_apply, val_main_c_apply,
    val_main_v3_apply, val_main_v2_apply, val_main_c_0_apply]
  rfl

/-- A mark is the word 0 or the word 1: one bit, zero-extended. -/
theorem mark_le_one (t : BitVec 32) : (mark t).toNat ≤ 1 := by
  unfold mark
  rw [BitVec.toNat_setWidth]
  have := (IntOp.ori (IntOp.cmpi .eq t 1#32) (IntOp.cmpi .eq t 0#32)).isLt
  omega

/-- The array has 8192 × 5000 entries, fewer than 2^31. -/
theorem card_lt : Fintype.card Arr.Idx < 2 ^ 31 := by
  rw [Fintype.card_congr (idxEquiv2 (n0 := 8192) (n1 := 5000)), Fintype.card_prod, Fintype.card_fin, Fintype.card_fin]
  norm_num

/-- The reference's integer reduction over both axes is the wrap-around sum of all marks, in any order. -/
theorem count_fold (x1 : Arr.Idx → BitVec 32) (i : S_.Idx) :
    val_main_v13 (F := Ideal) x1 i = (Finset.univ : Finset Arr.Idx).fold IntOp.addi 0#32 (fun j => mark (x1 j)) := by
  unfold val_main_v13
  rw [Host.reduce_eq_fold]
  rw [Finset.filter_true_of_mem fun j _ => funext fun b => b.elim0]
  rw [show (val_main_v12 (F := Ideal) x1) = fun j => mark (x1 j) from funext fun j => mark_apply x1 j]
  rfl

/-- The reference's denominator: the integer total, converted, is the sum of the converted marks. -/
theorem count_eq (x1 : Arr.Idx → BitVec 32) (i : S_.Idx) :
    val_main_v15 (F := Ideal) x1 i = markSum x1 := by
  rw [val_main_v15_apply, count_fold]
  exact fold_addi_convert (fun j => mark (x1 j)) (fun j => mark_le_one (x1 j)) card_lt

/-- The reference's result is the masked mean of its two arguments. -/
theorem result_eq (x0 : Arr.Idx → EReal) (x1 : Arr.Idx → BitVec 32) (i : S_.Idx) :
    val_main_v16 (F := Ideal) x0 x1 i = cost x0 x1 := by
  rw [val_main_v16_apply, val_main_v14_apply, count_eq, val_main_cst_2_apply]
  simp only [Ideal.hostDivf_def, Ideal.ofBits_def, Ideal.ofBits_zero_f32, zero_add]
  unfold cost lossSum
  exact congrArg (Ideal.div · (markSum x1)) (Finset.sum_congr rfl fun j _ => loss_apply x0 x1 j)

end Cert.ReferenceIdeal.RefValue

end
-- ==== Proof.lean ====
/-
  A masked binary cross-entropy, tiled over 64 row blocks with two one-element accumulators and a final scalar
  division, against its plain array-level formulation.

  Both programs compute, on the extended reals,
      cost = (Σ over all elements of the loss term) / (Σ over all elements of the mark),
  where the loss term of a probability `x` with label `t` is `-log x` (t = 1), `-log1p (-x)` (t = 0) or `0`, and the
  mark is 1 when t ∈ {0, 1} and 0 otherwise (Proof/Spec.lean).

  * The kernel's side: each grid point adds its block's double sum of terms and of marks to two accumulators that
    start at 0 (Proof/Pieces.lean, Proof/BlockValue.lean); after point n they hold the first n + 1 blocks' shares, and
    after the last point the whole numerator and denominator, which the last point copies out
    (Proof/Accum.lean); the host lines after the region divide one by the other (Proof/KernelValue.lean,
    Proof/KernelRun.lean).
    The two sides differ in how the total is grouped; extended-real addition is commutative and associative, so
    the grouping is immaterial, and no precondition on the inputs is used.
  * The reference's side: one float sum of the terms, and one INTEGER sum of the marks converted afterwards; fewer
    than 2^31 words that are each 0 or 1 cannot wrap, so converting the total equals adding the converted marks
    (Proof/CountLaw.lean, Proof/RefValue.lean).
  * The idealization rewrote nothing, so that conjunct is `True`; the three frames are the programs' runs with the
    results forgotten.
-/
import proofs.«144332_j24773371364065_1_alg».proof.Defs
import proofs.«144332_j24773371364065_1_alg».proof.Proof.Gen.Kernel
import proofs.«144332_j24773371364065_1_alg».proof.Proof.Gen.Kernel.Skeleton
import proofs.«144332_j24773371364065_1_alg».proof.Proof.Gen.Kernel.Launch
import proofs.«144332_j24773371364065_1_alg».proof.Proof.Gen.Kernel.Points
import proofs.«144332_j24773371364065_1_alg».proof.Proof.Gen.Kernel.Frame
import proofs.«144332_j24773371364065_1_alg».proof.Proof.Gen.KernelIdeal
import proofs.«144332_j24773371364065_1_alg».proof.Proof.Gen.KernelIdeal.Skeleton
import proofs.«144332_j24773371364065_1_alg».proof.Proof.Gen.KernelIdeal.Launch
import proofs.«144332_j24773371364065_1_alg».proof.Proof.Gen.KernelIdeal.Points
import proofs.«144332_j24773371364065_1_alg».proof.Proof.Gen.KernelIdeal.Frame
import proofs.«144332_j24773371364065_1_alg».proof.Proof.Gen.ReferenceIdeal
import proofs.«144332_j24773371364065_1_alg».proof.Proof.Gen.ReferenceIdeal.Run
import proofs.«144332_j24773371364065_1_alg».proof.Proof.Gen.ReferenceIdeal.Read
import proofs.«144332_j24773371364065_1_alg».proof.Proof.Gen.Pre_finite_inputs
import proofs.«144332_j24773371364065_1_alg».proof.Proof.KernelRun
import proofs.«144332_j24773371364065_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- On the extended reals the kernel's program and the reference end at the same value, the masked mean of
    arguments that agree. -/
theorem algebraic : Cert.algebraic_KernelIdeal_ReferenceIdeal := by
  intro m ρ m' ρ' _ hagree
  refine ⟨fun c _ => Cert.MaskedLoss.cost (Cert.KernelIdeal.Accum.X m c) (Cert.KernelIdeal.Accum.T m c),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  funext i
  exact Cert.ReferenceIdeal.RefValue.result_eq _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
